-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S1048576 : Shape := ⟨1, ![1048576]⟩
abbrev S16384x3 : Shape := ⟨2, ![16384, 3]⟩
abbrev S1048576x3 : Shape := ⟨2, ![1048576, 3]⟩
abbrev S67x128 : Shape := ⟨2, ![67, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_
  bcast_S_S1048576x3 : S_.BroadcastsInDim S1048576x3 (![] : Fin 0 → Fin S1048576x3.rank)
  reducesTo_S1048576x3_S_d0_1 : S1048576x3.ReducesTo [0, 1] S_
  bcast_S_S67x128 : S_.BroadcastsInDim S67x128 (![] : Fin 0 → Fin S67x128.rank)
  reducesTo_S67x128_S_d0_1 : S67x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S67x128 1) : IVec S_ 1 :=
  let main_c_5 : IVec S_ 1 := constantI S_ 1 1#1
  let main_v17 : IVec S_ 1 := (fun x v => Host.reduce IntOp.andi x v reducesTo_S67x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16384x64 .f32) (main_arg1 : IVec S1048576 32) (main_arg2 : FVec F S16384x3 .f32) (main_arg3 : FVec F S1048576x3 .f32) (main_arg4 : FVec F S67x128 .f32) (main_arg5 : FVec F S128 .f32) (main_arg6 : FVec F S128x64 .f32) (main_arg7 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x3 .f32 := Host.absf main_arg2
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S1048576x3 .f32 := Host.absf main_arg3
  let main_cst_2 : FVec F S_ .f32 := constant S_ .f32 0x7F800000#32
  let main_v10 : FVec F S1048576x3 .f32 := broadcastInDim S1048576x3 ![] bcast_S_S1048576x3 main_cst_2
  let main_v11 : IVec S1048576x3 1 := cmpf .olt main_v9 main_v10
  let main_c_3 : IVec S_ 1 := constantI S_ 1 1#1
  let main_v12 : IVec S_ 1 := (fun x v => Host.reduce IntOp.andi x v reducesTo_S1048576x3_S_d0_1 h_S_) main_v11 main_c_3
  let main_v13 : IVec S_ 1 := andi main_v8 main_v12
  let main_v14 : FVec F S67x128 .f32 := Host.absf main_arg4
  let main_cst_4 : FVec F S_ .f32 := constant S_ .f32 0x7F800000#32
  let main_v15 : FVec F S67x128 .f32 := broadcastInDim S67x128 ![] bcast_S_S67x128 main_cst_4
  let main_v16 : IVec S67x128 1 := cmpf .olt main_v14 main_v15
  fn_part1 (F := F) main_arg5 main_arg6 main_arg7 main_v13 main_v16
-- ==== Kernel.lean ====
abbrev S16384x64 : Shape := ⟨2, ![16384, 64]⟩
abbrev S1048576 : Shape := ⟨1, ![1048576]⟩
abbrev S16384x3 : Shape := ⟨2, ![16384, 3]⟩
abbrev S1048576x3 : Shape := ⟨2, ![1048576, 3]⟩
abbrev S67x128 : Shape := ⟨2, ![67, 128]⟩
abbrev S128 : Shape := ⟨1, ![128]⟩
abbrev S128x64 : Shape := ⟨2, ![128, 64]⟩
abbrev S64 : Shape := ⟨1, ![64]⟩
abbrev S_ : Shape := ⟨0, ![]⟩
abbrev S1048576x1 : Shape := ⟨2, ![1048576, 1]⟩
abbrev S1048576x64 : Shape := ⟨2, ![1048576, 64]⟩
abbrev S64x128 : Shape := ⟨2, ![64, 128]⟩
abbrev S3x128 : Shape := ⟨2, ![3, 128]⟩
abbrev S4096x64 : Shape := ⟨2, ![4096, 64]⟩
abbrev S4096x3 : Shape := ⟨2, ![4096, 3]⟩
abbrev S4096x1 : Shape := ⟨2, ![4096, 1]⟩
abbrev S1x128 : Shape := ⟨2, ![1, 128]⟩
abbrev S4096x128 : Shape := ⟨2, ![4096, 128]⟩
abbrev S1x64 : Shape := ⟨2, ![1, 64]⟩

abbrev nBuf : Space → Nat
  | .hbm => 29
  | .vmem => 13
  | .smem => 0
  | _ => 0

abbrev bufTy : (tb : Table) → Fin (tcTables nBuf tb) → BufTy
  | .hbm, ⟨0, _⟩ => ⟨S16384x64, .f32⟩
  | .hbm, ⟨1, _⟩ => ⟨S1048576, .i32⟩
  | .hbm, ⟨2, _⟩ => ⟨S16384x3, .f32⟩
  | .hbm, ⟨3, _⟩ => ⟨S1048576x3, .f32⟩
  | .hbm, ⟨4, _⟩ => ⟨S67x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x64, .f32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S1048576x1, .i32⟩
  | .hbm, ⟨25, _⟩ => ⟨S1048576x3, .f32⟩
  | .hbm, ⟨26, _⟩ => ⟨S64x128, .f32⟩
  | .hbm, ⟨27, _⟩ => ⟨S3x128, .f32⟩
  | .hbm, ⟨28, _⟩ => ⟨S1048576x64, .f32⟩
  | .local _ .vmem, ⟨0, _⟩ => ⟨S4096x64, .f32⟩
  | .local _ .vmem, ⟨1, _⟩ => ⟨S4096x64, .f32⟩
  | .local _ .vmem, ⟨2, _⟩ => ⟨S4096x3, .f32⟩
  | .local _ .vmem, ⟨3, _⟩ => ⟨S4096x3, .f32⟩
  | .local _ .vmem, ⟨4, _⟩ => ⟨S4096x3, .f32⟩
  | .local _ .vmem, ⟨5, _⟩ => ⟨S4096x3, .f32⟩
  | .local _ .vmem, ⟨6, _⟩ => ⟨S64x128, .f32⟩
  | .local _ .vmem, ⟨7, _⟩ => ⟨S3x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S4096x64, .f32⟩
  | .local _ .vmem, ⟨12, _⟩ => ⟨S4096x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S67x128_S64x128_0_0 : S67x128.Slices ![0, 0] S64x128
  slices_S67x128_S3x128_64_0 : S67x128.Slices ![64, 0] S3x128
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S4096x3_o0_0_S4096x1 : S4096x3.Slices ![0, 0] S4096x1
  slices_S3x128_o0_0_S1x128 : S3x128.Slices ![0, 0] S1x128
  broadcasts_S4096x1_S4096x128 : S4096x1.Broadcasts S4096x128
  broadcasts_S1x128_S4096x128 : S1x128.Broadcasts S4096x128
  slices_S4096x3_o0_1_S4096x1 : S4096x3.Slices ![0, 1] S4096x1
  slices_S3x128_o1_0_S1x128 : S3x128.Slices ![1, 0] S1x128
  slices_S4096x3_o0_2_S4096x1 : S4096x3.Slices ![0, 2] S4096x1
  slices_S3x128_o2_0_S1x128 : S3x128.Slices ![2, 0] S1x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  gather_S16384x64_S1048576x1_S1048576x64_1_0_n_n_0_1_164_wf : GatherDims.WF S16384x64 S1048576x1 S1048576x64 [1] [0] [] [0] [] 1 ![1, 64]
  gather_S16384x3_S1048576x1_S1048576x3_1_0_n_n_0_1_13_wf : GatherDims.WF S16384x3 S1048576x1 S1048576x3 [1] [0] [] [0] [] 1 ![1, 3]
  dot_S4096x64_S64x128_S4096x128_1_0_0_1_n_n_wf : DotDims.WF S4096x64 S64x128 S4096x128 [1] [0] [0] [1] [] []
  dot_S4096x128_S128x64_S4096x64_1_0_0_1_n_n_wf : DotDims.WF S4096x128 S128x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1048576x64.size a
  hwx0_0 : ∀ i : grid0.Coords, EltTy.bits .f32 = 32 ∨ (Rect.block (s := S1048576x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S1048576x3.size a
  hwx0_1 : ∀ i : grid0.Coords, EltTy.bits .f32 = 32 ∨ (Rect.block (s := S1048576x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x3.size a ≤ S1048576x3.size a
  hwx0_2 : ∀ i : grid0.Coords, EltTy.bits .f32 = 32 ∨ (Rect.block (s := S1048576x3) S4096x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x64.size a ≤ S1048576x64.size a
  hwx0_8 : ∀ i : grid0.Coords, EltTy.bits .f32 = 32 ∨ (Rect.block (s := S1048576x64) S4096x64.size (cc0_transform_8 i) (hinb0_8 i)).WholeWords (EltTy.packing .f32)

variable [Facts₀]

def gather_S16384x64_S1048576x1_S1048576x64_1_0_n_n_0_1_164 : GatherDims S16384x64 S1048576x1 S1048576x64 where
  offsetDims := [1]
  collapsedSliceDims := [0]
  operandBatchingDims := []
  startIndicesBatchingDims := []
  startIndexMap := [0]
  indexVectorDim := 1
  sliceSizes := ![1, 64]
  wf := gather_S16384x64_S1048576x1_S1048576x64_1_0_n_n_0_1_164_wf
def gather_S16384x3_S1048576x1_S1048576x3_1_0_n_n_0_1_13 : GatherDims S16384x3 S1048576x1 S1048576x3 where
  offsetDims := [1]
  collapsedSliceDims := [0]
  operandBatchingDims := []
  startIndicesBatchingDims := []
  startIndexMap := [0]
  indexVectorDim := 1
  sliceSizes := ![1, 3]
  wf := gather_S16384x3_S1048576x1_S1048576x3_1_0_n_n_0_1_13_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

abbrev win0_0 : Pipeline.Window sig grid0 :=
  Pipeline.Window.ofSpec (Memref.whole main_v6) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S4096x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x64 : Shape := ⟨2, ![16384, 64]⟩
abbrev S1048576 : Shape := ⟨1, ![1048576]⟩
abbrev S16384x3 : Shape := ⟨2, ![16384, 3]⟩
abbrev S1048576x3 : Shape := ⟨2, ![1048576, 3]⟩
abbrev S67x128 : Shape := ⟨2, ![67, 128]⟩
abbrev S128 : Shape := ⟨1, ![128]⟩
abbrev S128x64 : Shape := ⟨2, ![128, 64]⟩
abbrev S64 : Shape := ⟨1, ![64]⟩
abbrev S_ : Shape := ⟨0, ![]⟩
abbrev S1048576x1 : Shape := ⟨2, ![1048576, 1]⟩
abbrev S1048576x64 : Shape := ⟨2, ![1048576, 64]⟩
abbrev S1048576x67 : Shape := ⟨2, ![1048576, 67]⟩
abbrev S1048576x128 : Shape := ⟨2, ![1048576, 128]⟩
abbrev S1x128 : Shape := ⟨2, ![1, 128]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1048576, .i32⟩
  | .hbm, ⟨2, _⟩ => ⟨S16384x3, .f32⟩
  | .hbm, ⟨3, _⟩ => ⟨S1048576x3, .f32⟩
  | .hbm, ⟨4, _⟩ => ⟨S67x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x64, .f32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S1048576x1, .i32⟩
  | .hbm, ⟨25, _⟩ => ⟨S1048576x3, .f32⟩
  | .hbm, ⟨26, _⟩ => ⟨S1048576x3, .f32⟩
  | .hbm, ⟨27, _⟩ => ⟨S1048576x67, .f32⟩
  | .hbm, ⟨28, _⟩ => ⟨S1048576x128, .f32⟩
  | .hbm, ⟨29, _⟩ => ⟨S1x128, .f32⟩
  | .hbm, ⟨30, _⟩ => ⟨S1048576x128, .f32⟩
  | .hbm, ⟨31, _⟩ => ⟨S1048576x128, .f32⟩
  | .hbm, ⟨32, _⟩ => ⟨S_, .f32⟩
  | .hbm, ⟨33, _⟩ => ⟨S1048576x128, .f32⟩
  | .hbm, ⟨34, _⟩ => ⟨S1048576x128, .f32⟩
  | .hbm, ⟨35, _⟩ => ⟨S1048576x64, .f32⟩
  | .hbm, ⟨36, _⟩ => ⟨S1x64, .f32⟩
  | .hbm, ⟨37, _⟩ => ⟨S1048576x64, .f32⟩
  | .hbm, ⟨38, _⟩ => ⟨S1048576x64, .f32⟩
  | .hbm, ⟨39, _⟩ => ⟨S_, .f32⟩
  | .hbm, ⟨40, _⟩ => ⟨S1048576x64, .f32⟩
  | .hbm, ⟨41, _⟩ => ⟨S1048576x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_cst : Ref sig .tc := ⟨.hbm, 39, rfl⟩
abbrev main_call1_v0 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x64_S1048576x3_S1048576x67_d1 : Shape.Concatenates [S1048576x64, S1048576x3] S1048576x67 1
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  gather_S16384x64_S1048576x1_S1048576x64_1_0_n_n_0_1_164_wf : GatherDims.WF S16384x64 S1048576x1 S1048576x64 [1] [0] [] [0] [] 1 ![1, 64]
  gather_S16384x3_S1048576x1_S1048576x3_1_0_n_n_0_1_13_wf : GatherDims.WF S16384x3 S1048576x1 S1048576x3 [1] [0] [] [0] [] 1 ![1, 3]
  dot_S1048576x67_S67x128_S1048576x128_1_0_0_1_n_n_wf : DotDims.WF S1048576x67 S67x128 S1048576x128 [1] [0] [0] [1] [] []
  dot_S1048576x128_S128x64_S1048576x64_1_0_0_1_n_n_wf : DotDims.WF S1048576x128 S128x64 S1048576x64 [1] [0] [0] [1] [] []

variable [Facts₀]

def gather_S16384x64_S1048576x1_S1048576x64_1_0_n_n_0_1_164 : GatherDims S16384x64 S1048576x1 S1048576x64 where
  offsetDims := [1]
  collapsedSliceDims := [0]
  operandBatchingDims := []
  startIndicesBatchingDims := []
  startIndexMap := [0]
  indexVectorDim := 1
  sliceSizes := ![1, 64]
  wf := gather_S16384x64_S1048576x1_S1048576x64_1_0_n_n_0_1_164_wf
def gather_S16384x3_S1048576x1_S1048576x3_1_0_n_n_0_1_13 : GatherDims S16384x3 S1048576x1 S1048576x3 where
  offsetDims := [1]
  collapsedSliceDims := [0]
  operandBatchingDims := []
  startIndicesBatchingDims := []
  startIndexMap := [0]
  indexVectorDim := 1
  sliceSizes := ![1, 3]
  wf := gather_S16384x3_S1048576x1_S1048576x3_1_0_n_n_0_1_13_wf
def dot_S1048576x67_S67x128_S1048576x128_1_0_0_1_n_n : DotDims S1048576x67 S67x128 S1048576x128 where
  lhsContracting := [1]
  rhsContracting := [0]
  lhsNonContracting := [0]
  rhsNonContracting := [1]
  lhsBatch := []
  rhsBatch := []
  wf := dot_S1048576x67_S67x128_S1048576x128_1_0_0_1_n_n_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf

class Facts : Prop extends Facts₀ where

variable [Facts]
-- ==== Proof.Spec.lean ====
/-
  A two-layer perceptron applied to every point of a cloud, over the extended reals.

  Point `n` carries a row of 64 features `fg n`, a cluster centre `cg n` and its own position `pts n`, both in
  three coordinates; its displacement is `cg n - pts n`. The first layer maps the 67 numbers
  [features | displacement] through a 67 × 128 matrix, adds a bias and rectifies; the second maps the 128 hidden
  values through a 128 × 64 matrix, adds a bias and rectifies.

  The first layer is written in two arrangements. JOINED: the 67 numbers are laid side by side in one row `x n` and
  the product is one sum over 67 terms. SPLIT: the matrix is cut into its first 64 rows `Wa` and its last three rows
  `Wb`; the features meet `Wa` in a sum over 64 terms and the displacement meets `Wb` in three products added
  left to right. The two agree because a sum over `Fin 67` is the sum over its first 64 indices plus the three
  remaining terms, which needs only that addition is commutative and associative: it holds on every extended real,
  infinite ones included.

  Every value of a point depends on that point's row only, so the function restricted to a block of rows is the
  function of the block (`mlpSplit_row`).
-/
import Idealize.ShloMosaic.PureOps.Ideal
import Idealize.ShloMosaic.Lib.ValueIdx

noncomputable section

namespace PointMlp

open Idealize.ShloMosaic Idealize.ShloMosaic.ValueIdx

/-- An `a × b` matrix and a vector of length `a` of extended reals, indexed as the arrays are. -/
abbrev Mat (a b : Nat) : Type := (⟨2, ![a, b]⟩ : Shape).Idx → EReal
abbrev Row (a : Nat) : Type := (⟨1, ![a]⟩ : Shape).Idx → EReal

/-- The rectifier's threshold: the value of the all-zero word. -/
abbrev thr : EReal := Ideal.ofBits .f32 0x00000000#32

/-- Row `c` of the first 64 rows, and row `64 + a` of the last three, of a matrix of 67 rows. -/
def headRow (c : Fin 64) : Fin 67 := ⟨c.val, by omega⟩
def tailRow (a : Fin 3) : Fin 67 := ⟨64 + a.val, by omega⟩

/-- A sum over 67 indices is the sum over the first 64 plus the last three terms, added left to right. -/
theorem sum_head_tail {M : Type*} [AddCommMonoid M] (f : Fin 67 → M) :
    ∑ k : Fin 67, f k = (∑ c : Fin 64, f (headRow c)) + ((f (tailRow 0) + f (tailRow 1)) + f (tailRow 2)) := by
  have h := Fin.sum_univ_add (a := 64) (b := 3) f
  rw [Fin.sum_univ_three] at h
  exact h

/-- The first 64 rows and the last three rows of a 67-row matrix. -/
def headRows (W : Mat 67 128) : Mat 64 128 := fun i => W (ix2 (headRow (i 0)) (i 1))
def tailRows (W : Mat 67 128) : Mat 3 128 := fun i => W (ix2 (tailRow (i 0)) (i 1))

variable {N : Nat}

/-- Coordinate `a` of point `n`'s displacement from its cluster centre. -/
def disp (cg pts : Mat N 3) (n : Fin N) (a : Fin 3) : EReal := cg (ix2 n a) - pts (ix2 n a)

/-- Hidden unit `k` of point `n`, SPLIT arrangement. -/
def hiddenSplit (fg : Mat N 64) (cg pts : Mat N 3) (Wa : Mat 64 128) (Wb : Mat 3 128) (b1 : Row 128)
    (n : Fin N) (k : Fin 128) : EReal :=
  max (((∑ c : Fin 64, fg (ix2 n c) * Wa (ix2 c k))
        + ((disp cg pts n 0 * Wb (ix2 (0 : Fin 3) k) + disp cg pts n 1 * Wb (ix2 (1 : Fin 3) k))
            + disp cg pts n 2 * Wb (ix2 (2 : Fin 3) k)))
      + b1 (ix1 k)) thr

/-- Hidden unit `k` of point `n`, JOINED arrangement: `x n` is [features | displacement]. -/
def hiddenJoined (x : Mat N 67) (W1 : Mat 67 128) (b1 : Row 128) (n : Fin N) (k : Fin 128) : EReal :=
  max ((∑ c : Fin 67, x (ix2 n c) * W1 (ix2 c k)) + b1 (ix1 k)) thr

/-- Output `j` of point `n` over a hidden layer `h`. -/
def outAt (h : Fin N → Fin 128 → EReal) (W2 : Mat 128 64) (b2 : Row 64) (n : Fin N) (j : Fin 64) : EReal :=
  max ((∑ k : Fin 128, h n k * W2 (ix2 k j)) + b2 (ix1 j)) thr

/-- The perceptron's output array in the two arrangements of its first layer. -/
def mlpSplit (fg : Mat N 64) (cg pts : Mat N 3) (Wa : Mat 64 128) (Wb : Mat 3 128) (b1 : Row 128)
    (W2 : Mat 128 64) (b2 : Row 64) : Mat N 64 :=
  fun i => outAt (hiddenSplit fg cg pts Wa Wb b1) W2 b2 (i 0) (i 1)

def mlpJoined (x : Mat N 67) (W1 : Mat 67 128) (b1 : Row 128) (W2 : Mat 128 64) (b2 : Row 64) : Mat N 64 :=
  fun i => outAt (hiddenJoined x W1 b1) W2 b2 (i 0) (i 1)

/-- The two arrangements of a hidden unit agree when row `n` of `x` is the features followed by the displacement. -/
theorem hiddenJoined_eq_split (x : Mat N 67) (fg : Mat N 64) (cg pts : Mat N 3) (W1 : Mat 67 128) (b1 : Row 128)
    (n : Fin N) (k : Fin 128)
    (hhead : ∀ c : Fin 64, x (ix2 n (headRow c)) = fg (ix2 n c))
    (htail : ∀ a : Fin 3, x (ix2 n (tailRow a)) = disp cg pts n a) :
    hiddenJoined x W1 b1 n k = hiddenSplit fg cg pts (headRows W1) (tailRows W1) b1 n k := by
  unfold hiddenJoined hiddenSplit
  rw [sum_head_tail]
  simp only [hhead, htail]
  rfl

/-- So the output arrays agree. -/
theorem mlpJoined_eq_split (x : Mat N 67) (fg : Mat N 64) (cg pts : Mat N 3) (W1 : Mat 67 128) (b1 : Row 128)
    (W2 : Mat 128 64) (b2 : Row 64)
    (hhead : ∀ (n : Fin N) (c : Fin 64), x (ix2 n (headRow c)) = fg (ix2 n c))
    (htail : ∀ (n : Fin N) (a : Fin 3), x (ix2 n (tailRow a)) = disp cg pts n a) :
    mlpJoined x W1 b1 W2 b2 = mlpSplit fg cg pts (headRows W1) (tailRows W1) b1 W2 b2 := by
  funext i
  unfold mlpJoined mlpSplit outAt
  have e : ∀ k : Fin 128, hiddenJoined x W1 b1 (i 0) k = hiddenSplit fg cg pts (headRows W1) (tailRows W1) b1 (i 0) k :=
    fun k => hiddenJoined_eq_split x fg cg pts W1 b1 (i 0) k (hhead (i 0)) (htail (i 0))
  simp only [e]

/-- A point's outputs depend on its own row only: two clouds that agree on one row each give that row the same
    outputs. -/
theorem mlpSplit_row {N' : Nat} (fg : Mat N 64) (cg pts : Mat N 3) (fg' : Mat N' 64) (cg' pts' : Mat N' 3)
    (Wa : Mat 64 128) (Wb : Mat 3 128) (b1 : Row 128) (W2 : Mat 128 64) (b2 : Row 64)
    (n : Fin N) (n' : Fin N') (j : Fin 64)
    (hf : ∀ c : Fin 64, fg (ix2 n c) = fg' (ix2 n' c))
    (hc : ∀ a : Fin 3, cg (ix2 n a) = cg' (ix2 n' a))
    (hp : ∀ a : Fin 3, pts (ix2 n a) = pts' (ix2 n' a)) :
    mlpSplit fg cg pts Wa Wb b1 W2 b2 (ix2 n j) = mlpSplit fg' cg' pts' Wa Wb b1 W2 b2 (ix2 n' j) := by
  show outAt (hiddenSplit fg cg pts Wa Wb b1) W2 b2 n j = outAt (hiddenSplit fg' cg' pts' Wa Wb b1) W2 b2 n' j
  unfold outAt hiddenSplit disp
  simp only [hf, hc, hp]

/-- The same with every other operand replaced by an equal one. -/
theorem mlpSplit_congr {N' : Nat} (fg : Mat N 64) (cg pts : Mat N 3) (fg' : Mat N' 64) (cg' pts' : Mat N' 3)
    (Wa Wa' : Mat 64 128) (Wb Wb' : Mat 3 128) (b1 b1' : Row 128) (W2 W2' : Mat 128 64) (b2 b2' : Row 64)
    (n : Fin N) (n' : Fin N') (j : Fin 64)
    (hf : ∀ c : Fin 64, fg (ix2 n c) = fg' (ix2 n' c))
    (hc : ∀ a : Fin 3, cg (ix2 n a) = cg' (ix2 n' a))
    (hp : ∀ a : Fin 3, pts (ix2 n a) = pts' (ix2 n' a))
    (hWa : Wa = Wa') (hWb : Wb = Wb') (hb1 : b1 = b1') (hW2 : W2 = W2') (hb2 : b2 = b2') :
    mlpSplit fg cg pts Wa Wb b1 W2 b2 (ix2 n j) = mlpSplit fg' cg' pts' Wa' Wb' b1' W2' b2' (ix2 n' j) := by
  subst hWa hWb hb1 hW2 hb2
  exact mlpSplit_row fg cg pts fg' cg' pts' Wa Wb b1 W2 b2 n n' j hf hc hp

end PointMlp

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibUnitBlock.lean ====
/-
  A leading unit axis and unit-extent rows or columns of rank-2 arrays, read at an index written by its coordinates,
  over arbitrary extents and any element type:

  * `drop_lead_apply`: a [1,a,b] block viewed as an [a,b] matrix reads, at (p, q), the block at (0, p, q);
  * `add_lead_apply`: an [a,b] matrix viewed as a [1,a,b] block reads, at (u, p, q), the matrix at (p, q);
  * `row_spread_apply`: a [1,b] row spread over [a,b] reads, at (p, q), the row at (0, q);
  * `col_spread_apply`: an [a,1] column spread over [a,b] reads, at (p, q), the column at (p, 0).

  The two views keep the row-major position (the unit coordinate contributes nothing); a spread reads coordinate 0
  along the operand's unit axis.
-/
import Idealize.ShloMosaic.Lib.ValueIdx
import Idealize.ShloMosaic.Lib.Pipeline.Value

namespace LibUnitBlock

open Idealize.ShloMosaic Idealize.ShloMosaic.ValueIdx

variable {α : Type} {a b : ℕ}

/-- A [1,b] row spread over [a,b] reads, at (p, q), the row at (0, q). -/
theorem row_spread_apply (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An [a,1] column spread over [a,b] reads, at (p, q), the column at (p, 0). -/
theorem col_spread_apply (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A [1,a,b] block viewed as [a,b] reads, at (p, q), the block at (0, p, q). -/
theorem drop_lead_apply (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    rw [Nat.zero_mul, Nat.zero_add])

/-- An [a,b] matrix viewed as a [1,a,b] block reads, at (u, p, q), the matrix at (p, q). -/
theorem add_lead_apply (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) :=
  shapeCast_apply v h _ _ (by
    have hu : u.val = 0 := by omega
    rw [Shape.rowMajor_val_three, Shape.rowMajor_val_two]
    show p.val * b + q.val = (u.val * a + p.val) * b + q.val
    rw [hu, Nat.zero_mul, Nat.zero_add])

end LibUnitBlock
-- ==== Proof.BodyValue.lean ====
/-
  What the kernel's body computes from one block of 4096 points, entry by entry, over the extended reals.

  The body forms the displacement `centre - position` of each point of the block, multiplies its three coordinates by
  the three rows of the lower part of the first weight matrix and adds the three rank-one products left to right; adds
  the product of the block's features with the upper part of the first weight matrix, then the first bias; rectifies;
  and multiplies the rectified hidden block by the second weight matrix. Read at row `r` and column `j` that is
  `Σ_k hidden(r, k) · W2(k, j)`, with `hidden` the split arrangement of the first layer. A change of float
  format is the identity on the extended reals, and a matrix product into a zero accumulator is the plain sum.
-/
import proofs.«128492_j46961172414969_2_alg».proof.Proof.Gen.KernelIdeal.Skeleton
import proofs.«128492_j46961172414969_2_alg».proof.Proof.Spec
import proofs.«128492_j46961172414969_2_alg».proof.Proof.LibMatmul2
import proofs.«128492_j46961172414969_2_alg».proof.Proof.LibUnitBlock
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx PointMlp

/-! ## The body's value, named part by part -/

/-- The block's displacements: cluster centres minus positions. -/
def dispVec (P0 P1 : Vec Ideal S4096x3 .f32) : FVec Ideal S4096x3 .f32 :=
  subf (shapeCast S4096x3 P0 shapeCasts_S4096x3_S4096x3) P1

/-- Coordinate `o` of every displacement times row `o` of the lower weights: a rank-one 4096 × 128 product. -/
def rankOne (o : Nat) (hc : S4096x3.Slices ![0, o] S4096x1) (hr : S3x128.Slices ![o, 0] S1x128)
    (d : FVec Ideal S4096x3 .f32) (w : FVec Ideal S3x128 .f32) : FVec Ideal S4096x128 .f32 :=
  mulf (broadcastTo S4096x128 (extractStridedSlice S4096x1 ![0, o] d hc) broadcasts_S4096x1_S4096x128)
    (broadcastTo S4096x128 (extractStridedSlice S1x128 ![o, 0] w hr) broadcasts_S1x128_S4096x128)

/-- The displacement's contribution to the hidden layer: the three rank-one products added left to right. -/
def dispPart (P0 P1 : Vec Ideal S4096x3 .f32) (P2 : Vec Ideal S3x128 .f32) : FVec Ideal S4096x128 .f32 :=
  addf (addf
      (rankOne 0 slices_S4096x3_o0_0_S4096x1 slices_S3x128_o0_0_S1x128 (dispVec P0 P1) (shapeCast S3x128 P2 shapeCasts_S3x128_S3x128))
      (rankOne 1 slices_S4096x3_o0_1_S4096x1 slices_S3x128_o1_0_S1x128 (dispVec P0 P1) (shapeCast S3x128 P2 shapeCasts_S3x128_S3x128)))
    (rankOne 2 slices_S4096x3_o0_2_S4096x1 slices_S3x128_o2_0_S1x128 (dispVec P0 P1) (shapeCast S3x128 P2 shapeCasts_S3x128_S3x128))

/-- The features' contribution: the block's features times the upper weights. -/
def featPart (P3 : Vec Ideal S4096x64 .f32) (P4 : Vec Ideal S64x128 .f32) : FVec Ideal S4096x128 .f32 :=
  matmul dot_S4096x64_S64x128_S4096x128_1_0_0_1_n_n none
    (truncf .bf16 (shapeCast S4096x64 P3 shapeCasts_S4096x64_S4096x64) bitsLt_bf16_f32)
    (truncf .bf16 (shapeCast S64x128 P4 shapeCasts_S64x128_S64x128) bitsLt_bf16_f32)
    (constant S4096x128 .f32 0x00000000#32)

/-- The first bias spread over the block's rows. -/
def biasRows (P5 : Vec Ideal S128 .f32) : FVec Ideal S4096x128 .f32 :=
  broadcastTo S4096x128 (shapeCast S1x128 P5 shapeCasts_S128_S1x128) broadcasts_S1x128_S4096x128

/-- The rectified hidden block. -/
def hiddenPart (P0 P1 : Vec Ideal S4096x3 .f32) (P2 : Vec Ideal S3x128 .f32) (P3 : Vec Ideal S4096x64 .f32)
    (P4 : Vec Ideal S64x128 .f32) (P5 : Vec Ideal S128 .f32) : FVec Ideal S4096x128 .f32 :=
  maximumf (addf (addf (featPart P3 P4) (dispPart P0 P1 P2)) (biasRows P5))
    (broadcast S4096x128 (Scalar.ofBits .f32 0x00000000#32))

/-- The body's product payload is the rectified hidden block times the second weights. -/
theorem pay2_eq (P0 P1 : Vec Ideal S4096x3 .f32) (P2 : Vec Ideal S3x128 .f32) (P3 : Vec Ideal S4096x64 .f32)
    (P4 : Vec Ideal S64x128 .f32) (P5 : Vec Ideal S128 .f32) (P6 : Vec Ideal S128x64 .f32) :
    k0_pay2 P0 P1 P2 P3 P4 P5 P6
      = matmul dot_S4096x128_S128x64_S4096x64_1_0_0_1_n_n none
          (truncf .bf16 (hiddenPart P0 P1 P2 P3 P4 P5) bitsLt_bf16_f32) (truncf .bf16 P6 bitsLt_bf16_f32)
          (constant S4096x64 .f32 0x00000000#32) := rfl

/-! ## Each part read at an entry -/

theorem dispVec_apply (P0 P1 : Vec Ideal S4096x3 .f32) (r : Fin 4096) (a : Fin 3) :
    dispVec P0 P1 (ix2 r a) = disp P0 P1 r a := by
  unfold dispVec
  rw [shapeCast_self]
  rfl

theorem rankOne_apply (o : Nat) (hc : S4096x3.Slices ![0, o] S4096x1) (hr : S3x128.Slices ![o, 0] S1x128)
    (d : FVec Ideal S4096x3 .f32) (w : FVec Ideal S3x128 .f32) (r : Fin 4096) (k : Fin 128) (a : Fin 3) (ha : a.val = o) :
    rankOne o hc hr d w (ix2 r k) = d (ix2 r a) * w (ix2 a k) := by
  show broadcastTo S4096x128 (extractStridedSlice S4096x1 ![0, o] d hc) broadcasts_S4096x1_S4096x128 (ix2 r k)
      * broadcastTo S4096x128 (extractStridedSlice S1x128 ![o, 0] w hr) broadcasts_S1x128_S4096x128 (ix2 r k) = _
  exact congrArg₂ (· * ·)
    ((LibUnitBlock.col_spread_apply _ _ r k).trans (slice2_axis1_apply o d hc r (0 : Fin 1) a (by omega)))
    ((LibUnitBlock.row_spread_apply _ _ r k).trans (slice2_axis0_apply o w hr (0 : Fin 1) k a (by omega)))

theorem dispPart_apply (P0 P1 : Vec Ideal S4096x3 .f32) (P2 : Vec Ideal S3x128 .f32) (r : Fin 4096) (k : Fin 128) :
    dispPart P0 P1 P2 (ix2 r k)
      = (disp P0 P1 r 0 * P2 (ix2 (0 : Fin 3) k) + disp P0 P1 r 1 * P2 (ix2 (1 : Fin 3) k))
          + disp P0 P1 r 2 * P2 (ix2 (2 : Fin 3) k) := by
  unfold dispPart
  rw [shapeCast_self]
  show (rankOne 0 _ _ (dispVec P0 P1) P2 (ix2 r k) + rankOne 1 _ _ (dispVec P0 P1) P2 (ix2 r k))
      + rankOne 2 _ _ (dispVec P0 P1) P2 (ix2 r k) = _
  rw [rankOne_apply 0 _ _ _ _ r k 0 rfl, rankOne_apply 1 _ _ _ _ r k 1 rfl, rankOne_apply 2 _ _ _ _ r k 2 rfl,
    dispVec_apply, dispVec_apply, dispVec_apply]

theorem featPart_apply (P3 : Vec Ideal S4096x64 .f32) (P4 : Vec Ideal S64x128 .f32) (r : Fin 4096) (k : Fin 128) :
    featPart P3 P4 (ix2 r k) = ∑ c : Fin 64, P3 (ix2 r c) * P4 (ix2 c k) := by
  unfold featPart
  rw [shapeCast_self, shapeCast_self]
  exact LibMatmul2.matmul_nn_apply _ none _ _ r k

theorem biasRows_apply (P5 : Vec Ideal S128 .f32) (r : Fin 4096) (k : Fin 128) :
    biasRows P5 (ix2 r k) = P5 (ix1 k) :=
  (LibUnitBlock.row_spread_apply _ _ r k).trans (shapeCast_a_1a_apply P5 _ (0 : Fin 1) k)

theorem hiddenPart_apply (P0 P1 : Vec Ideal S4096x3 .f32) (P2 : Vec Ideal S3x128 .f32) (P3 : Vec Ideal S4096x64 .f32)
    (P4 : Vec Ideal S64x128 .f32) (P5 : Vec Ideal S128 .f32) (r : Fin 4096) (k : Fin 128) :
    hiddenPart P0 P1 P2 P3 P4 P5 (ix2 r k) = hiddenSplit P3 P0 P1 P4 P2 P5 r k := by
  show max ((featPart P3 P4 (ix2 r k) + dispPart P0 P1 P2 (ix2 r k)) + biasRows P5 (ix2 r k)) thr = _
  rw [featPart_apply, dispPart_apply, biasRows_apply]
  rfl

/-- The body's product payload at row `r`, column `j`. -/
theorem pay2_apply (P0 P1 : Vec Ideal S4096x3 .f32) (P2 : Vec Ideal S3x128 .f32) (P3 : Vec Ideal S4096x64 .f32)
    (P4 : Vec Ideal S64x128 .f32) (P5 : Vec Ideal S128 .f32) (P6 : Vec Ideal S128x64 .f32) (r : Fin 4096) (j : Fin 64) :
    k0_pay2 P0 P1 P2 P3 P4 P5 P6 (ix2 r j) = ∑ k : Fin 128, hiddenSplit P3 P0 P1 P4 P2 P5 r k * P6 (ix2 k j) := by
  rw [pay2_eq]
  refine (LibMatmul2.matmul_nn_apply _ none _ _ r j).trans ?_
  exact Finset.sum_congr rfl fun k _ => congrArg (· * P6 (ix2 k j)) (hiddenPart_apply P0 P1 P2 P3 P4 P5 r k)

end Cert.KernelIdeal.BodyValue

end
-- ==== Proof.KernelArray.lean ====
/-
  From the blocks to the whole output array.

  The call runs over 256 grid points. Point `t` receives rows `4096 t … 4096 t + 4095` of the gathered features,
  of the gathered centres and of the positions, and the whole of the two parts of the first weight matrix, of the second
  weight matrix and of the two biases; it writes rows `4096 t … 4096 t + 4095` of the output. A point's output row
  depends on its own input row only, so what point `t` writes is the restriction to its rows of ONE function of the
  whole arrays, the split perceptron; the 256 blocks tile the 1048576 rows (row `i` is in block `i / 4096`), so the
  output array ends holding that function. Before the call the program gathers the features and the centres by the
  labels and cuts the first weight matrix into its first 64 rows and its last three.
-/
import proofs.«128492_j46961172414969_2_alg».proof.Proof.Gen.KernelIdeal.Value
import proofs.«128492_j46961172414969_2_alg».proof.Proof.BodyValue
import proofs.«128492_j46961172414969_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx PointMlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## One block -/

/-- What the body leaves in the output block is the split perceptron of the block's operands. -/
theorem block_eq (x0 : Vec Ideal S4096x64 .f32) (x1 x2 : Vec Ideal S4096x3 .f32) (x3 : Vec Ideal S64x128 .f32)
    (x4 : Vec Ideal S3x128 .f32) (x5 : Vec Ideal S128 .f32) (x6 : Vec Ideal S128x64 .f32) (x7 : Vec Ideal S64 .f32) :
    out0_8 x0 x1 x2 x3 x4 x5 x6 x7 = mlpSplit (N := 4096) x0 x1 x2 x3 x4 x5 x6 x7 := by
  unfold out0_8
  simp only [View.ld_unit_zero (S := S4096x3) hz2, View.ld_unit_zero (S := S3x128) hz2, View.ld_unit_zero (S := S4096x64) hz2,
    View.ld_unit_zero (S := S64x128) hz2, View.ld_unit_zero (S := S128) hz1, View.ld_unit_zero (S := S128x64) hz2,
    View.ld_unit_zero (S := S64) hz1]
  funext y
  rw [Value.canon8_eq]
  obtain ⟨r, j, rfl⟩ : ∃ (r : Fin 4096) (j : Fin 64), y = ix2 r j := ⟨y 0, y 1, eq_ix2 y⟩
  have e0 : Value.ix8_0 (ix2 r j) = ix2 r j :=
    funext fun a => Fin.ext (by match a with | ⟨0, _⟩ => rfl | ⟨1, _⟩ => rfl)
  have e1 : Value.ix8_1 (ix2 r j) = ix1 j := funext fun a => Fin.ext (by match a with | ⟨0, _⟩ => rfl)
  show max (k0_pay2 x1 x2 x4 x0 x3 x5 x6 (Value.ix8_0 (ix2 r j)) + x7 (Value.ix8_1 (ix2 r j))) thr = _
  rw [e0, e1, BodyValue.pay2_apply]
  rfl

/-! ## Where each window's block sits in its array -/

/-- The block indices of the nine windows at grid point `t`, decided over the 256 points: the three streamed inputs
    and the output move with `t` along the rows; the weights and biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem lt_points (t : Fin cfg0.N) : t.val < 256 := t.isLt

/-- The array row under row `r` of block `t`. -/
def rowOf (t : Fin cfg0.N) (r : Fin 4096) : Fin 1048576 :=
  ⟨t.val * 4096 + r.val, by have := lt_points t; have := r.isLt; omega⟩

theorem feat_blk (c : Dev nD) (t : Fin cfg0.N) (r : Fin 4096) (k : Fin 64) :
    (iblk m c 0 t : S4096x64.Idx → EReal) (ix2 r k) = (V m c main_v6 : S1048576x64.Idx → EReal) (ix2 (rowOf t r) k) := by
  obtain ⟨e0, e1, -⟩ := idx_facts t
  show (V m c main_v6 : S1048576x64.Idx → EReal) (((cfg0.win 0).blk t).view.emb (ix2 r k)) = _
  refine congrArg _ (funext fun a => Fin.ext ?_)
  match a with
  | ⟨0, _⟩ => show win0_0.index t (0 : Fin 2) * 4096 + 1 * r.val = t.val * 4096 + r.val; omega
  | ⟨1, _⟩ => show win0_0.index t (1 : Fin 2) * 64 + 1 * k.val = k.val; omega

theorem centre_blk (c : Dev nD) (t : Fin cfg0.N) (r : Fin 4096) (a : Fin 3) :
    (iblk m c 1 t : S4096x3.Idx → EReal) (ix2 r a) = (V m c main_v13 : S1048576x3.Idx → EReal) (ix2 (rowOf t r) a) := by
  obtain ⟨-, -, e0, e1, -⟩ := idx_facts t
  show (V m c main_v13 : S1048576x3.Idx → EReal) (((cfg0.win 1).blk t).view.emb (ix2 r a)) = _
  refine congrArg _ (funext fun b => Fin.ext ?_)
  match b with
  | ⟨0, _⟩ => show win0_1.index t (0 : Fin 2) * 4096 + 1 * r.val = t.val * 4096 + r.val; omega
  | ⟨1, _⟩ => show win0_1.index t (1 : Fin 2) * 3 + 1 * a.val = a.val; omega

theorem point_blk (c : Dev nD) (t : Fin cfg0.N) (r : Fin 4096) (a : Fin 3) :
    (iblk m c 2 t : S4096x3.Idx → EReal) (ix2 r a) = (V m c main_arg3 : S1048576x3.Idx → EReal) (ix2 (rowOf t r) a) := by
  obtain ⟨-, -, -, -, e0, e1, -⟩ := idx_facts t
  show (V m c main_arg3 : S1048576x3.Idx → EReal) (((cfg0.win 2).blk t).view.emb (ix2 r a)) = _
  refine congrArg _ (funext fun b => Fin.ext ?_)
  match b with
  | ⟨0, _⟩ => show win0_2.index t (0 : Fin 2) * 4096 + 1 * r.val = t.val * 4096 + r.val; omega
  | ⟨1, _⟩ => show win0_2.index t (1 : Fin 2) * 3 + 1 * a.val = a.val; omega

theorem upper_blk (c : Dev nD) (t : Fin cfg0.N) : (iblk m c 3 t : S64x128.Idx → EReal) = V m c main_v14 := by
  obtain ⟨-, -, -, -, -, -, e0, e1, -⟩ := idx_facts t
  funext y
  show (V m c main_v14 : S64x128.Idx → EReal) (((cfg0.win 3).blk t).view.emb y) = _
  refine congrArg _ (funext fun b => Fin.ext ?_)
  match b with
  | ⟨0, _⟩ => show win0_3.index t (0 : Fin 2) * 64 + 1 * (y 0).val = (y 0).val; omega
  | ⟨1, _⟩ => show win0_3.index t (1 : Fin 2) * 128 + 1 * (y 1).val = (y 1).val; omega

theorem lower_blk (c : Dev nD) (t : Fin cfg0.N) : (iblk m c 4 t : S3x128.Idx → EReal) = V m c main_v15 := by
  obtain ⟨-, -, -, -, -, -, -, -, e0, e1, -⟩ := idx_facts t
  funext y
  show (V m c main_v15 : S3x128.Idx → EReal) (((cfg0.win 4).blk t).view.emb y) = _
  refine congrArg _ (funext fun b => Fin.ext ?_)
  match b with
  | ⟨0, _⟩ => show win0_4.index t (0 : Fin 2) * 3 + 1 * (y 0).val = (y 0).val; omega
  | ⟨1, _⟩ => show win0_4.index t (1 : Fin 2) * 128 + 1 * (y 1).val = (y 1).val; omega

theorem bias1_blk (c : Dev nD) (t : Fin cfg0.N) : (iblk m c 5 t : S128.Idx → EReal) = V m c main_arg5 := by
  obtain ⟨-, -, -, -, -, -, -, -, -, -, e0, -⟩ := idx_facts t
  funext y
  show (V m c main_arg5 : S128.Idx → EReal) (((cfg0.win 5).blk t).view.emb y) = _
  refine congrArg _ (funext fun b => Fin.ext ?_)
  match b with
  | ⟨0, _⟩ => show win0_5.index t (0 : Fin 1) * 128 + 1 * (y 0).val = (y 0).val; omega

theorem second_blk (c : Dev nD) (t : Fin cfg0.N) : (iblk m c 6 t : S128x64.Idx → EReal) = V m c main_arg6 := by
  obtain ⟨-, -, -, -, -, -, -, -, -, -, -, e0, e1, -⟩ := idx_facts t
  funext y
  show (V m c main_arg6 : S128x64.Idx → EReal) (((cfg0.win 6).blk t).view.emb y) = _
  refine congrArg _ (funext fun b => Fin.ext ?_)
  match b with
  | ⟨0, _⟩ => show win0_6.index t (0 : Fin 2) * 128 + 1 * (y 0).val = (y 0).val; omega
  | ⟨1, _⟩ => show win0_6.index t (1 : Fin 2) * 64 + 1 * (y 1).val = (y 1).val; omega

theorem bias2_blk (c : Dev nD) (t : Fin cfg0.N) : (iblk m c 7 t : S64.Idx → EReal) = V m c main_arg7 := by
  obtain ⟨-, -, -, -, -, -, -, -, -, -, -, -, -, e0, -⟩ := idx_facts t
  funext y
  show (V m c main_arg7 : S64.Idx → EReal) (((cfg0.win 7).blk t).view.emb y) = _
  refine congrArg _ (funext fun b => Fin.ext ?_)
  match b with
  | ⟨0, _⟩ => show win0_7.index t (0 : Fin 1) * 64 + 1 * (y 0).val = (y 0).val; omega

theorem out_emb (t : Fin cfg0.N) (r : Fin 4096) (j : Fin 64) :
    ((cfg0.win 8).blk t).view.emb (ix2 r j) = (ix2 (rowOf t r) j : S1048576x64.Idx) := by
  obtain ⟨-, -, -, -, -, -, -, -, -, -, -, -, -, -, e0, e1⟩ := idx_facts t
  refine funext fun b => Fin.ext ?_
  match b with
  | ⟨0, _⟩ => show win0_8.index t (0 : Fin 2) * 4096 + 1 * r.val = t.val * 4096 + r.val; omega
  | ⟨1, _⟩ => show win0_8.index t (1 : Fin 2) * 64 + 1 * j.val = j.val; omega

/-! ## The whole array -/

/-- The split perceptron of the arrays as the call finds them. -/
def whole (c : Dev nD) : S1048576x64.Idx → EReal :=
  mlpSplit (V m c main_v6) (V m c main_v13) (V m c main_arg3) (V m c main_v14) (V m c main_v15) (V m c main_arg5)
    (V m c main_arg6) (V m c main_arg7)

/-- What point `t` writes back is block `t` of that function. -/
theorem flushed_eq (c : Dev nD) (t : Fin cfg0.N) :
    (dats m 0 c).flushed 8 t = ((cfg0.win 8).blk t).view.read (Elt Ideal) (whole m c) := by
  rw [Value.flushed8]
  refine (congrArg ((cfg0.win 8).cut (grid0.coords t))
    (block_eq (iblk m c 0 t) (iblk m c 1 t) (iblk m c 2 t) (iblk m c 3 t) (iblk m c 4 t) (iblk m c 5 t) (iblk m c 6 t)
      (iblk m c 7 t))).trans ?_
  funext y
  obtain ⟨r, j, rfl⟩ : ∃ (r : Fin 4096) (j : Fin 64), y = ix2 r j := ⟨y 0, y 1, eq_ix2 y⟩
  show mlpSplit (N := 4096) (iblk m c 0 t) (iblk m c 1 t) (iblk m c 2 t) (iblk m c 3 t) (iblk m c 4 t) (iblk m c 5 t)
      (iblk m c 6 t) (iblk m c 7 t) (ix2 r j) = whole m c (((cfg0.win 8).blk t).view.emb (ix2 r j))
  rw [out_emb t r j]
  exact mlpSplit_congr _ _ _ _ _ _ _ _ _ _ _ _ _ _ _ _ r (rowOf t r) j (feat_blk m c t r) (centre_blk m c t r) (point_blk m c t r)
    (upper_blk m c t) (lower_blk m c t) (bias1_blk m c t) (second_blk m c t) (bias2_blk m c t)

/-- An index of the array is in point `t`'s block iff each coordinate is in the block's range on its axis. -/
theorem mem_blk (t : Fin cfg0.N) (i : S1048576x64.Idx) :
    i ∈ ((cfg0.win 8).blk t).view.set ↔ ∀ a : Fin 2, win0_8.index t a * S4096x64.size a ≤ (i a).val
      ∧ (i a).val < win0_8.index t a * S4096x64.size a + S4096x64.size a := by
  show i ∈ ((View.whole main_v16).slice (win0_8.rect t)).set ↔ _
  rw [View.set_slice_whole, Rect.mem_set_unit]
  exact Iff.rfl

/-- Every row is in some point's block: row `i` in block `i / 4096`. -/
theorem cover (i : S1048576x64.Idx) :
    ∃ t : Fin cfg0.N, (cfg0.win 8).flush t = true ∧ i ∈ ((cfg0.win 8).blk t).view.set := by
  have hi0 : (i 0).val < 1048576 := (i 0).isLt
  have hi1 : (i 1).val < 64 := (i 1).isLt
  let t : Fin cfg0.N := ⟨(i 0).val / 4096, by show (i 0).val / 4096 < 256; omega⟩
  have htv : t.val = (i 0).val / 4096 := rfl
  obtain ⟨-, -, -, -, -, -, -, -, -, -, -, -, -, -, e0, e1⟩ := idx_facts t
  refine ⟨t, flush0_8 t, ?_⟩
  rw [mem_blk]
  intro a
  match a with
  | ⟨0, _⟩ =>
    show win0_8.index t (0 : Fin 2) * 4096 ≤ (i 0).val ∧ (i 0).val < win0_8.index t (0 : Fin 2) * 4096 + 4096
    omega
  | ⟨1, _⟩ =>
    show win0_8.index t (1 : Fin 2) * 64 ≤ (i 1).val ∧ (i 1).val < win0_8.index t (1 : Fin 2) * 64 + 64
    omega

/-- The output array after the run is the split perceptron of the arrays as the call finds them. -/
theorem final (c : Dev nD) : (dats m 0 c).arrAt 8 cfg0.N = whole m c :=
  (dats m 0 c).arrAt_eq_of_cover 8 (whole m c) (fun t _ => flushed_eq m c t) cover

/-! ## What the program computes before the call -/

/-- The labels with the negative ones wrapped round, as a column of start indices. -/
def labelCol (x1 : (⟨S1048576, .i32⟩ : BufTy).Contents (Elt Ideal)) : (⟨S1048576x1, .i32⟩ : BufTy).Contents (Elt Ideal) :=
  broadcastInDim S1048576x1 ![0] bcast_S1048576_S1048576x1_0
    (select (cmpi .slt x1 (broadcastInDim S1048576 ![] bcast_S_S1048576 (constantI S_ 32 0#32)))
      (addi x1 (broadcastInDim S1048576 ![] bcast_S_S1048576 (constantI S_ 32 16384#32))) x1)

/-- Each point's feature row and cluster centre, gathered by its label. -/
def gatheredFeat (x0 : (⟨S16384x64, .f32⟩ : BufTy).Contents (Elt Ideal)) (x1 : (⟨S1048576, .i32⟩ : BufTy).Contents (Elt Ideal)) :
    (⟨S1048576x64, .f32⟩ : BufTy).Contents (Elt Ideal) :=
  Host.gather gather_S16384x64_S1048576x1_S1048576x64_1_0_n_n_0_1_164 x0 (labelCol x1)
def gatheredCentre (x2 : (⟨S16384x3, .f32⟩ : BufTy).Contents (Elt Ideal)) (x1 : (⟨S1048576, .i32⟩ : BufTy).Contents (Elt Ideal)) :
    (⟨S1048576x3, .f32⟩ : BufTy).Contents (Elt Ideal) :=
  Host.gather gather_S16384x3_S1048576x1_S1048576x3_1_0_n_n_0_1_13 x2 (labelCol x1)

theorem V_feat (c : Dev nD) :
    (V m c main_v6 : S1048576x64.Idx → EReal) = gatheredFeat (m ((c : Thread nD τ).loc main_arg0)) (m ((c : Thread nD τ).loc main_arg1)) := by
  dsimp only [Gen.V, Gen.hostOps0]; after_results <;> rfl

theorem V_centre (c : Dev nD) :
    (V m c main_v13 : S1048576x3.Idx → EReal) = gatheredCentre (m ((c : Thread nD τ).loc main_arg2)) (m ((c : Thread nD τ).loc main_arg1)) := by
  dsimp only [Gen.V, Gen.hostOps0]; after_results <;> rfl

theorem V_upper (c : Dev nD) : (V m c main_v14 : S64x128.Idx → EReal) = headRows (m ((c : Thread nD τ).loc main_arg4)) := by
  have e : (V m c main_v14 : S64x128.Idx → EReal)
      = extractStridedSlice S64x128 ![0, 0] (m ((c : Thread nD τ).loc main_arg4)) slices_S67x128_S64x128_0_0 := by
    dsimp only [Gen.V, Gen.hostOps0]; after_results <;> rfl
  rw [e]
  funext y
  obtain ⟨a, k, rfl⟩ : ∃ (a : Fin 64) (k : Fin 128), y = ix2 a k := ⟨y 0, y 1, eq_ix2 y⟩
  exact slice2_axis0_apply 0 _ _ a k (headRow a) (Nat.zero_add _).symm

theorem V_lower (c : Dev nD) : (V m c main_v15 : S3x128.Idx → EReal) = tailRows (m ((c : Thread nD τ).loc main_arg4)) := by
  have e : (V m c main_v15 : S3x128.Idx → EReal)
      = extractStridedSlice S3x128 ![64, 0] (m ((c : Thread nD τ).loc main_arg4)) slices_S67x128_S3x128_64_0 := by
    dsimp only [Gen.V, Gen.hostOps0]; after_results <;> rfl
  rw [e]
  funext y
  obtain ⟨a, k, rfl⟩ : ∃ (a : Fin 3) (k : Fin 128), y = ix2 a k := ⟨y 0, y 1, eq_ix2 y⟩
  exact slice2_axis0_apply 64 _ _ a k (tailRow a) rfl

/-- The split perceptron of the arrays as the call finds them, in terms of the program's arguments. -/
theorem whole_eq (c : Dev nD) :
    whole m c = mlpSplit (gatheredFeat (m ((c : Thread nD τ).loc main_arg0)) (m ((c : Thread nD τ).loc main_arg1))) (gatheredCentre (m ((c : Thread nD τ).loc main_arg2)) (m ((c : Thread nD τ).loc main_arg1))) (m ((c : Thread nD τ).loc main_arg3))
      (headRows (m ((c : Thread nD τ).loc main_arg4))) (tailRows (m ((c : Thread nD τ).loc main_arg4))) (m ((c : Thread nD τ).loc main_arg5)) (m ((c : Thread nD τ).loc main_arg6)) (m ((c : Thread nD τ).loc main_arg7)) := by
  unfold whole
  rw [V_feat m c, V_centre m c, V_main_arg3 m c, V_upper m c, V_lower m c, V_main_arg5 m c, V_main_arg6 m c, V_main_arg7 m c]

/-! ## The run -/

/-- Every weakly fair execution of the program terminates with the output array at the split perceptron of its
    arguments, the arguments unchanged. -/
theorem run : θ_run defs (onTc (τ := τ) (main (F := Ideal))) ⟨m, fun _ => 0, ρ⟩ fun r => ∀ c : Dev nD,
      r.2.mem ((c : Thread nD τ).loc main_v16)
        = mlpSplit (gatheredFeat (m ((c : Thread nD τ).loc main_arg0)) (m ((c : Thread nD τ).loc main_arg1))) (gatheredCentre (m ((c : Thread nD τ).loc main_arg2)) (m ((c : Thread nD τ).loc main_arg1))) (m ((c : Thread nD τ).loc main_arg3))
            (headRows (m ((c : Thread nD τ).loc main_arg4))) (tailRows (m ((c : Thread nD τ).loc main_arg4))) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (whole_eq m c)), (h c).2⟩)
    (Value.run_blocks m ρ)

end Cert.KernelIdeal.ArrayValue

end
-- ==== Proof.LibConcatCols.lean ====
/-
  A matrix built by laying pieces side by side, read at an entry.

  Pieces of one height `R` and any widths are concatenated along the columns into an `R × C` matrix. The entry at
  row `r`, column `k` is the entry of the piece whose span of columns holds `k`: if the pieces before piece `n`
  have total width `pre`, and `k = pre + k'` with `k'` a column of piece `n`, the entry is piece `n` at `(r, k')`.
-/
import Idealize.ShloMosaic.Lib.Pipeline.Value
import Idealize.ShloMosaic.Lib.ValueIdx

namespace LibConcatCols

open Idealize.ShloMosaic Idealize.ShloMosaic.ValueIdx

variable {α : Type}

/-- The column-wise concatenation `xs` of matrices of height `R`, read at row `r` and column `k`: piece `n`, of
    width `c`, at `(r, k')`, where the pieces before it are `pre` columns wide together and `k = pre + k'`. -/
theorem concatenate_cols_apply {R C : Nat} (xs : List ((s : Shape) × (s.Idx → α)))
    (h : Shape.Concatenates (xs.map (·.1)) (⟨2, ![R, C]⟩ : Shape) (1 : Fin 2))
    (r : Fin R) (k : Fin C) (n : Nat) (hn : n < xs.length) (c : Nat)
    (x₁ : (⟨2, ![R, c]⟩ : Shape).Idx → α) (hxn : xs[n] = ⟨(⟨2, ![R, c]⟩ : Shape), x₁⟩) (pre : Nat)
    (hpre : (((xs.take n).map (·.1)).map fun s : Shape =>
        if h : s.rank = (⟨2, ![R, C]⟩ : Shape).rank then s.size ((1 : Fin (⟨2, ![R, C]⟩ : Shape).rank).cast h.symm) else 0).sum = pre)
    (k' : Fin c) (hk : pre + k'.val = k.val) :
    concatenate (⟨2, ![R, C]⟩ : Shape) (1 : Fin 2) xs h (ix2 r k) = x₁ (ix2 r k') :=
  concatenate_apply_piece (t := (⟨2, ![R, C]⟩ : Shape)) (1 : Fin 2) xs h (ix2 r k) n hn (⟨2, ![R, c]⟩ : Shape) x₁ hxn rfl pre hpre
    (ix2 r k')
    (fun b hb => match b, hb with
      | ⟨0, _⟩, _ => rfl
      | ⟨1, _⟩, hb => absurd rfl hb)
    hk

end LibConcatCols
-- ==== Proof.RefValue.lean ====
/-
  The reference computes the perceptron in the joined arrangement, and therefore in the split one.

  The reference gathers each point's feature row and cluster centre by its label, lays the features and the
  displacement `centre - position` side by side in a row of 67 numbers, multiplies by the whole first weight matrix,
  adds the bias and rectifies, then multiplies by the second weight matrix, adds the bias and rectifies. Read entry by
  entry each product is a plain sum over the contracted coordinate; the joined row at a column below 64 is the
  feature there, and at column `64 + a` coordinate `a` of the displacement. The two gathered arrays are carried as
  they are: what a gather reads is never opened.
-/
import proofs.«128492_j46961172414969_2_alg».proof.Proof.Gen.ReferenceIdeal.Read
import proofs.«128492_j46961172414969_2_alg».proof.Proof.Spec
import proofs.«128492_j46961172414969_2_alg».proof.Proof.LibConcatCols
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx PointMlp

/-! ## Where each operation reads its operands, by coordinates -/

theorem lhs_out (n : Fin 1048576) (j : Fin 64) (k : Fin 128) : lidx_main_v21 (ix2 n j) k = ix2 n k :=
  funext fun a => Fin.ext (by match a with | ⟨0, _⟩ => rfl | ⟨1, _⟩ => rfl)
theorem rhs_out (n : Fin 1048576) (j : Fin 64) (k : Fin 128) : ridx_main_v21 (ix2 n j) k = ix2 k j :=
  funext fun a => Fin.ext (by match a with | ⟨0, _⟩ => rfl | ⟨1, _⟩ => rfl)
theorem lhs_hid (n : Fin 1048576) (k : Fin 128) (c : Fin 67) : lidx_main_v16 (ix2 n k) c = ix2 n c :=
  funext fun a => Fin.ext (by match a with | ⟨0, _⟩ => rfl | ⟨1, _⟩ => rfl)
theorem rhs_hid (n : Fin 1048576) (k : Fin 128) (c : Fin 67) : ridx_main_v16 (ix2 n k) c = ix2 c k :=
  funext fun a => Fin.ext (by match a with | ⟨0, _⟩ => rfl | ⟨1, _⟩ => rfl)
theorem bias_hid (n : Fin 1048576) (k : Fin 128) : idx_main_v17 (idx_main_v18 (ix2 n k)) = ix1 k :=
  funext fun a => Fin.ext (by match a with | ⟨0, _⟩ => rfl)
theorem bias_out (n : Fin 1048576) (j : Fin 64) : idx_main_v22 (idx_main_v23 (ix2 n j)) = ix1 j :=
  funext fun a => Fin.ext (by match a with | ⟨0, _⟩ => rfl)

/-! ## The reference's result is the joined perceptron of its joined rows -/

theorem result_eq_joined (x0 : (⟨S16384x64, .f32⟩ : BufTy).Contents (Elt Ideal)) (x1 : (⟨S1048576, .i32⟩ : BufTy).Contents (Elt Ideal))
    (x2 : (⟨S16384x3, .f32⟩ : BufTy).Contents (Elt Ideal)) (x3 : (⟨S1048576x3, .f32⟩ : BufTy).Contents (Elt Ideal))
    (x4 : (⟨S67x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal)) :
    val_main_v25 (F := Ideal) x0 x1 x2 x3 x4 x5 x6 x7 = mlpJoined (val_main_v15 (F := Ideal) x0 x1 x2 x3) x4 x5 x6 x7 := by
  funext i
  obtain ⟨n, j, rfl⟩ : ∃ (n : Fin 1048576) (j : Fin 64), i = ix2 n j := ⟨i 0, i 1, eq_ix2 i⟩
  rw [val_main_v25_apply, val_main_v24_apply, val_main_v21_apply, val_main_v23_apply, val_main_v22_apply,
    val_main_call1_v0_apply, val_main_call1_cst_apply, bias_out]
  simp only [lhs_out, rhs_out, val_main_v20_apply, val_main_v19_apply, val_main_v16_apply, val_main_v18_apply,
    val_main_v17_apply, val_main_call0_v0_apply, val_main_call0_cst_apply, lhs_hid, rhs_hid, bias_hid]
  rfl

/-! ## The joined rows: features, then displacement -/

theorem joined_head (x0 : (⟨S16384x64, .f32⟩ : BufTy).Contents (Elt Ideal)) (x1 : (⟨S1048576, .i32⟩ : BufTy).Contents (Elt Ideal))
    (x2 : (⟨S16384x3, .f32⟩ : BufTy).Contents (Elt Ideal)) (x3 : (⟨S1048576x3, .f32⟩ : BufTy).Contents (Elt Ideal))
    (n : Fin 1048576) (c : Fin 64) :
    val_main_v15 (F := Ideal) x0 x1 x2 x3 (ix2 n (headRow c)) = val_main_v6 (F := Ideal) x0 x1 (ix2 n c) := by
  unfold val_main_v15
  exact LibConcatCols.concatenate_cols_apply _ _ n (headRow c) 0 (by show (0 : Nat) < 2; omega) 64 (val_main_v6 (F := Ideal) x0 x1) rfl 0 rfl c
    (Nat.zero_add _)

theorem joined_tail (x0 : (⟨S16384x64, .f32⟩ : BufTy).Contents (Elt Ideal)) (x1 : (⟨S1048576, .i32⟩ : BufTy).Contents (Elt Ideal))
    (x2 : (⟨S16384x3, .f32⟩ : BufTy).Contents (Elt Ideal)) (x3 : (⟨S1048576x3, .f32⟩ : BufTy).Contents (Elt Ideal))
    (n : Fin 1048576) (a : Fin 3) :
    val_main_v15 (F := Ideal) x0 x1 x2 x3 (ix2 n (tailRow a)) = disp (val_main_v13 (F := Ideal) x1 x2) x3 n a := by
  unfold val_main_v15
  exact LibConcatCols.concatenate_cols_apply _ _ n (tailRow a) 1 (by show (1 : Nat) < 2; omega) 3 (val_main_v14 (F := Ideal) x1 x2 x3) rfl 64 rfl a
    rfl

/-- The reference's result is the split perceptron of the gathered features, the gathered centres, the positions
    and the two parts of the first weight matrix. -/
theorem result_eq (x0 : (⟨S16384x64, .f32⟩ : BufTy).Contents (Elt Ideal)) (x1 : (⟨S1048576, .i32⟩ : BufTy).Contents (Elt Ideal))
    (x2 : (⟨S16384x3, .f32⟩ : BufTy).Contents (Elt Ideal)) (x3 : (⟨S1048576x3, .f32⟩ : BufTy).Contents (Elt Ideal))
    (x4 : (⟨S67x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal)) :
    val_main_v25 (F := Ideal) x0 x1 x2 x3 x4 x5 x6 x7
      = mlpSplit (val_main_v6 (F := Ideal) x0 x1) (val_main_v13 (F := Ideal) x1 x2) x3 (headRows x4) (tailRows x4) x5 x6 x7 :=
  (result_eq_joined x0 x1 x2 x3 x4 x5 x6 x7).trans
    (mlpJoined_eq_split _ _ _ _ x4 x5 x6 x7 (joined_head x0 x1 x2 x3) (joined_tail x0 x1 x2 x3))

end Cert.ReferenceIdeal.RefValue

end
-- ==== Proof.lean ====
/-
  The certificate of a label-gather followed by a two-layer perceptron over a cloud of 1048576 points.

  Both programs gather, for every point, the feature row and the cluster centre its label names (the same gather of
  the same arguments, carried whole and never opened), and feed the 64 features and the three coordinates of the
  displacement `centre - position` through a rectified 67 → 128 → 64 perceptron. The reference joins the 67 numbers in
  one row and multiplies by the whole first weight matrix. The kernel cuts that matrix into its first 64 rows and its
  last three, multiplies the features by the first part, adds the three rank-one products of the displacement with the
  rows of the second part, and works on blocks of 4096 points. On the extended reals the two are one function: a sum
  over 67 indices is the sum over the first 64 plus the last three terms (addition is commutative and associative on
  every extended real, so no finiteness is used), a change of float format is the identity, a matrix product into a
  zero accumulator is the plain sum, and a point's outputs depend on its own row only, so the blocks are the
  restrictions of the whole-array function and tile it.

  The kernel's run with its output array named and the reference's run come from the generated value, run and read
  modules; the bridge between them is Spec (the function and the law), BodyValue (the body's value at an entry),
  KernelArray (blocks to array, and what the program computes before the call) and RefValue (the reference is the
  same function).
-/
import proofs.«128492_j46961172414969_2_alg».proof.Defs
import proofs.«128492_j46961172414969_2_alg».proof.Proof.Gen.Kernel
import proofs.«128492_j46961172414969_2_alg».proof.Proof.Gen.Kernel.Skeleton
import proofs.«128492_j46961172414969_2_alg».proof.Proof.Gen.Kernel.Launch
import proofs.«128492_j46961172414969_2_alg».proof.Proof.Gen.Kernel.Points
import proofs.«128492_j46961172414969_2_alg».proof.Proof.Gen.Kernel.Frame
import proofs.«128492_j46961172414969_2_alg».proof.Proof.Gen.KernelIdeal
import proofs.«128492_j46961172414969_2_alg».proof.Proof.Gen.KernelIdeal.Skeleton
import proofs.«128492_j46961172414969_2_alg».proof.Proof.Gen.KernelIdeal.Launch
import proofs.«128492_j46961172414969_2_alg».proof.Proof.Gen.KernelIdeal.Points
import proofs.«128492_j46961172414969_2_alg».proof.Proof.Gen.KernelIdeal.Frame
import proofs.«128492_j46961172414969_2_alg».proof.Proof.Gen.KernelIdeal.Value
import proofs.«128492_j46961172414969_2_alg».proof.Proof.Gen.ReferenceIdeal
import proofs.«128492_j46961172414969_2_alg».proof.Proof.Gen.ReferenceIdeal.Run
import proofs.«128492_j46961172414969_2_alg».proof.Proof.Gen.ReferenceIdeal.Read
import proofs.«128492_j46961172414969_2_alg».proof.Proof.Gen.Pre_finite_inputs
import proofs.«128492_j46961172414969_2_alg».proof.Proof.Spec
import proofs.«128492_j46961172414969_2_alg».proof.Proof.KernelArray
import proofs.«128492_j46961172414969_2_alg».proof.Proof.RefValue
import Idealize.ShloMosaic.Adequacy
import Idealize.ShloMosaic.Init

noncomputable section

namespace Cert.Proof

open Idealize.ShloMosaic Idealize.ShloMosaic.TcCoe Idealize.SL.Sem PointMlp

/-- The two programs gather the features with the same dimensions from the same wrapped labels. -/
theorem feat_same (x0 : (⟨Cert.KernelIdeal.S16384x64, .f32⟩ : BufTy).Contents (Elt Ideal))
    (x1 : (⟨Cert.KernelIdeal.S1048576, .i32⟩ : BufTy).Contents (Elt Ideal)) :
    Cert.KernelIdeal.ArrayValue.gatheredFeat x0 x1 = Cert.ReferenceIdeal.Read.val_main_v6 (F := Ideal) x0 x1 := rfl

/-- And the cluster centres. -/
theorem centre_same (x2 : (⟨Cert.KernelIdeal.S16384x3, .f32⟩ : BufTy).Contents (Elt Ideal))
    (x1 : (⟨Cert.KernelIdeal.S1048576, .i32⟩ : BufTy).Contents (Elt Ideal)) :
    Cert.KernelIdeal.ArrayValue.gatheredCentre x2 x1 = Cert.ReferenceIdeal.Read.val_main_v13 (F := Ideal) x1 x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no rewrite to account for. -/
theorem preserves : Cert.preserves_Kernel_KernelIdeal := trivial

/-- Both runs end with the output array at the split perceptron of the gathered features, the gathered centres, the
    positions, the two parts of the first weight matrix, the second weight matrix and the biases. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v25_eq, Cert.ReferenceIdeal.RefValue.result_eq, a0, a1, a2, a3, a4, a5, a6, a7,
    feat_same, centre_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
